-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S1024x512 : Shape := ⟨2, ![1024, 512]⟩
abbrev S512 : Shape := ⟨1, ![512]⟩
abbrev S1024x128 : Shape := ⟨2, ![1024, 128]⟩
abbrev S128 : Shape := ⟨1, ![128]⟩
abbrev S160000 : Shape := ⟨1, ![160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x512 .f32) (main_arg1 : FVec F S1024x512 .f32) (main_arg2 : FVec F S512 .f32) (main_arg3 : FVec F S1024x128 .f32) (main_arg4 : FVec F S128 .f32) (main_arg5 : IVec S160000 32) (main_arg6 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S10000x512 : Shape := ⟨2, ![10000, 512]⟩
abbrev S1024x512 : Shape := ⟨2, ![1024, 512]⟩
abbrev S512 : Shape := ⟨1, ![512]⟩
abbrev S1024x128 : Shape := ⟨2, ![1024, 128]⟩
abbrev S128 : Shape := ⟨1, ![128]⟩
abbrev S160000 : Shape := ⟨1, ![160000]⟩
abbrev S_ : Shape := ⟨0, ![]⟩
abbrev S10000 : Shape := ⟨1, ![10000]⟩
abbrev S160000x1 : Shape := ⟨2, ![160000, 1]⟩
abbrev S512x512 : Shape := ⟨2, ![512, 512]⟩
abbrev S512x128 : Shape := ⟨2, ![512, 128]⟩
abbrev S160000x512 : Shape := ⟨2, ![160000, 512]⟩
abbrev S10000x1 : Shape := ⟨2, ![10000, 1]⟩
abbrev S1x512 : Shape := ⟨2, ![1, 512]⟩
abbrev S1000x512 : Shape := ⟨2, ![1000, 512]⟩
abbrev S1x128 : Shape := ⟨2, ![1, 128]⟩
abbrev S10000x128 : Shape := ⟨2, ![10000, 128]⟩
abbrev S1000x128 : Shape := ⟨2, ![1000, 128]⟩

abbrev nBuf : Space → Nat
  | .hbm => 59
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S1024x512, .f32⟩
  | .hbm, ⟨2, _⟩ => ⟨S512, .f32⟩
  | .hbm, ⟨3, _⟩ => ⟨S1024x128, .f32⟩
  | .hbm, ⟨4, _⟩ => ⟨S128, .f32⟩
  | .hbm, ⟨5, _⟩ => ⟨S160000, .i32⟩
  | .hbm, ⟨6, _⟩ => ⟨S160000, .i32⟩
  | .hbm, ⟨7, _⟩ => ⟨S_, .f32⟩
  | .hbm, ⟨8, _⟩ => ⟨S160000, .f32⟩
  | .hbm, ⟨9, _⟩ => ⟨S_, .f32⟩
  | .hbm, ⟨10, _⟩ => ⟨S10000, .f32⟩
  | .hbm, ⟨11, _⟩ => ⟨S160000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S512x512, .f32⟩
  | .hbm, ⟨20, _⟩ => ⟨S512x512, .f32⟩
  | .hbm, ⟨21, _⟩ => ⟨S512x128, .f32⟩
  | .hbm, ⟨22, _⟩ => ⟨S512x128, .f32⟩
  | .hbm, ⟨23, _⟩ => ⟨S_, .i32⟩
  | .hbm, ⟨24, _⟩ => ⟨S160000, .i32⟩
  | .hbm, ⟨25, _⟩ => ⟨S160000, .i1⟩
  | .hbm, ⟨26, _⟩ => ⟨S_, .i32⟩
  | .hbm, ⟨27, _⟩ => ⟨S160000, .i32⟩
  | .hbm, ⟨28, _⟩ => ⟨S160000, .i32⟩
  | .hbm, ⟨29, _⟩ => ⟨S160000, .i32⟩
  | .hbm, ⟨30, _⟩ => ⟨S160000x1, .i32⟩
  | .hbm, ⟨31, _⟩ => ⟨S160000x512, .f32⟩
  | .hbm, ⟨32, _⟩ => ⟨S_, .f32⟩
  | .hbm, ⟨33, _⟩ => ⟨S10000x512, .f32⟩
  | .hbm, ⟨34, _⟩ => ⟨S160000x1, .i32⟩
  | .hbm, ⟨35, _⟩ => ⟨S10000x512, .f32⟩
  | .hbm, ⟨36, _⟩ => ⟨S10000x1, .f32⟩
  | .hbm, ⟨37, _⟩ => ⟨S10000x512, .f32⟩
  | .hbm, ⟨38, _⟩ => ⟨S10000x512, .f32⟩
  | .hbm, ⟨39, _⟩ => ⟨S1x512, .f32⟩
  | .hbm, ⟨40, _⟩ => ⟨S10000x512, .f32⟩
  | .hbm, ⟨41, _⟩ => ⟨S_, .i32⟩
  | .hbm, ⟨42, _⟩ => ⟨S160000, .i32⟩
  | .hbm, ⟨43, _⟩ => ⟨S160000, .i1⟩
  | .hbm, ⟨44, _⟩ => ⟨S_, .i32⟩
  | .hbm, ⟨45, _⟩ => ⟨S160000, .i32⟩
  | .hbm, ⟨46, _⟩ => ⟨S160000, .i32⟩
  | .hbm, ⟨47, _⟩ => ⟨S160000, .i32⟩
  | .hbm, ⟨48, _⟩ => ⟨S160000x1, .i32⟩
  | .hbm, ⟨49, _⟩ => ⟨S160000x512, .f32⟩
  | .hbm, ⟨50, _⟩ => ⟨S_, .f32⟩
  | .hbm, ⟨51, _⟩ => ⟨S10000x512, .f32⟩
  | .hbm, ⟨52, _⟩ => ⟨S160000x1, .i32⟩
  | .hbm, ⟨53, _⟩ => ⟨S10000x512, .f32⟩
  | .hbm, ⟨54, _⟩ => ⟨S10000x1, .f32⟩
  | .hbm, ⟨55, _⟩ => ⟨S10000x512, .f32⟩
  | .hbm, ⟨56, _⟩ => ⟨S10000x512, .f32⟩
  | .hbm, ⟨57, _⟩ => ⟨S1x128, .f32⟩
  | .hbm, ⟨58, _⟩ => ⟨S10000x128, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x128, .f32⟩
  | .local _ .vmem, ⟨14, _⟩ => ⟨S512x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  slices_S1024x512_S512x512_0_0 : S1024x512.Slices ![0, 0] S512x512
  slices_S1024x512_S512x512_512_0 : S1024x512.Slices ![512, 0] S512x512
  slices_S1024x128_S512x128_0_0 : S1024x128.Slices ![0, 0] S512x128
  slices_S1024x128_S512x128_512_0 : S1024x128.Slices ![512, 0] S512x128
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x512 : Shape := ⟨2, ![10000, 512]⟩
abbrev S1024x512 : Shape := ⟨2, ![1024, 512]⟩
abbrev S512 : Shape := ⟨1, ![512]⟩
abbrev S1024x128 : Shape := ⟨2, ![1024, 128]⟩
abbrev S128 : Shape := ⟨1, ![128]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x1024 : Shape := ⟨2, ![10000, 1024]⟩
abbrev S1x512 : Shape := ⟨2, ![1, 512]⟩
abbrev S10000x128 : Shape := ⟨2, ![10000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S1024x512, .f32⟩
  | .hbm, ⟨2, _⟩ => ⟨S512, .f32⟩
  | .hbm, ⟨3, _⟩ => ⟨S1024x128, .f32⟩
  | .hbm, ⟨4, _⟩ => ⟨S128, .f32⟩
  | .hbm, ⟨5, _⟩ => ⟨S160000, .i32⟩
  | .hbm, ⟨6, _⟩ => ⟨S160000, .i32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .f32⟩
  | .hbm, ⟨17, _⟩ => ⟨S10000x512, .f32⟩
  | .hbm, ⟨18, _⟩ => ⟨S160000x1, .i32⟩
  | .hbm, ⟨19, _⟩ => ⟨S10000x512, .f32⟩
  | .hbm, ⟨20, _⟩ => ⟨S_, .f32⟩
  | .hbm, ⟨21, _⟩ => ⟨S160000, .f32⟩
  | .hbm, ⟨22, _⟩ => ⟨S_, .f32⟩
  | .hbm, ⟨23, _⟩ => ⟨S10000, .f32⟩
  | .hbm, ⟨24, _⟩ => ⟨S160000x1, .i32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x512, .f32⟩
  | .hbm, ⟨31, _⟩ => ⟨S10000x512, .f32⟩
  | .hbm, ⟨32, _⟩ => ⟨S10000x1024, .f32⟩
  | .hbm, ⟨33, _⟩ => ⟨S10000x512, .f32⟩
  | .hbm, ⟨34, _⟩ => ⟨S1x512, .f32⟩
  | .hbm, ⟨35, _⟩ => ⟨S10000x512, .f32⟩
  | .hbm, ⟨36, _⟩ => ⟨S10000x512, .f32⟩
  | .hbm, ⟨37, _⟩ => ⟨S_, .f32⟩
  | .hbm, ⟨38, _⟩ => ⟨S10000x512, .f32⟩
  | .hbm, ⟨39, _⟩ => ⟨S10000x512, .f32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S160000x512, .f32⟩
  | .hbm, ⟨49, _⟩ => ⟨S_, .f32⟩
  | .hbm, ⟨50, _⟩ => ⟨S10000x512, .f32⟩
  | .hbm, ⟨51, _⟩ => ⟨S160000x1, .i32⟩
  | .hbm, ⟨52, _⟩ => ⟨S10000x512, .f32⟩
  | .hbm, ⟨53, _⟩ => ⟨S_, .f32⟩
  | .hbm, ⟨54, _⟩ => ⟨S160000, .f32⟩
  | .hbm, ⟨55, _⟩ => ⟨S_, .f32⟩
  | .hbm, ⟨56, _⟩ => ⟨S10000, .f32⟩
  | .hbm, ⟨57, _⟩ => ⟨S160000x1, .i32⟩
  | .hbm, ⟨58, _⟩ => ⟨S10000, .f32⟩
  | .hbm, ⟨59, _⟩ => ⟨S_, .f32⟩
  | .hbm, ⟨60, _⟩ => ⟨S10000, .f32⟩
  | .hbm, ⟨61, _⟩ => ⟨S10000, .f32⟩
  | .hbm, ⟨62, _⟩ => ⟨S10000x1, .f32⟩
  | .hbm, ⟨63, _⟩ => ⟨S10000x512, .f32⟩
  | .hbm, ⟨64, _⟩ => ⟨S10000x512, .f32⟩
  | .hbm, ⟨65, _⟩ => ⟨S10000x1024, .f32⟩
  | .hbm, ⟨66, _⟩ => ⟨S10000x128, .f32⟩
  | .hbm, ⟨67, _⟩ => ⟨S1x128, .f32⟩
  | .hbm, ⟨68, _⟩ => ⟨S10000x128, .f32⟩
  | .hbm, ⟨69, _⟩ => ⟨S10000x128, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  concatenates_S10000x512_S10000x512_S10000x1024_d1 : Shape.Concatenates [S10000x512, S10000x512] S10000x1024 1
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x1024_S1024x512_S10000x512_1_0_0_1_n_n_wf : DotDims.WF S10000x1024 S1024x512 S10000x512 [1] [0] [0] [1] [] []
  dot_S10000x1024_S1024x128_S10000x128_1_0_0_1_n_n_wf : DotDims.WF S10000x1024 S1024x128 S10000x128 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x1024_S1024x128_S10000x128_1_0_0_1_n_n : DotDims S10000x1024 S1024x128 S10000x128 where
  lhsContracting := [1]
  rhsContracting := [0]
  lhsNonContracting := [0]
  rhsNonContracting := [1]
  lhsBatch := []
  rhsBatch := []
  wf := dot_S10000x1024_S1024x128_S10000x128_1_0_0_1_n_n_wf

class Facts : Prop extends Facts₀ where

variable [Facts]
-- ==== Proof.KernelRun.lean ====
/-
  The run of the idealized kernel program with its result array named.

  @main is four segments: the host operations before the first launch, the first launch, the host operations
  between the launches, the second launch.  Every weakly fair execution terminates without a fault, and in its final
  state every unscoped buffer holds what the fold of the four segments leaves there: the result array holds the
  second launch's output array, and the seven argument arrays hold what they held at the start (no host operation
  and no launch writes an argument).
-/
import proofs.«156740_j42185168781873_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the contents the
    fold of the segments gives it (the second launch's output array), the arguments as launched. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.SageAlgebra.lean ====
/-
  The algebra of one mean-aggregating graph layer on the extended reals.

  A layer maps node features x (one row per node) and the mean a of each node's in-neighbour rows to
  [x | a] · W + b: the two feature blocks laid side by side and contracted against a weight matrix whose rows
  split in the same two halves.  Three facts join the two ways of computing it:

    * the mean "sum times the reciprocal of the count floored at one" is "sum divided by the count floored at
      one" on EVERY extended real: the floored count is at least one, hence not zero, and off zero the ideal
      quotient x / y is x · y⁻¹, so s · (1 · y⁻¹) = s · y⁻¹ — no finiteness is used;
    * a contraction over K + K terms is the contraction over the first K plus the contraction over the last K
      (addition on the extended reals is commutative and associative);
    * a row-by-column product of the joined features against W is therefore the product of x with W's upper
      half plus the product of a with W's lower half.
-/
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx

/-- The f32 word of 1.0 denotes the real one. -/
theorem one_f32 : Ideal.ofBits .f32 0x3F800000#32 = 1 := by
  simp [Ideal.ofBits, Ideal.ieee, -EReal.coe_mul]; norm_num

/-- A sum scaled by the reciprocal of a count floored at one is the sum divided by that floored count, for every
    extended real sum and count: the divisor is at least one, so it is not zero, and off zero the ideal quotient
    is the product with the inverse. -/
theorem mul_recip_floor (s n : EReal) : s * Ideal.div 1 (max n 1) = Ideal.div s (max n 1) := by
  have hc : max n 1 ≠ 0 := ne_of_gt (lt_of_lt_of_le zero_lt_one (le_max_right n 1))
  unfold Ideal.div
  rw [if_neg hc, if_neg hc, one_mul]

/-- A sum of K + K terms is the sum of the first K plus the sum of the last K. -/
theorem sum_halves {K K2 : ℕ} (hK : K + K = K2) (f : Fin K2 → EReal) :
    ∑ j : Fin K2, f j = ∑ k : Fin K, f ⟨k.val, by omega⟩ + ∑ k : Fin K, f ⟨K + k.val, by omega⟩ := by
  subst hK
  exact Fin.sum_univ_add f

variable {M K K2 N : ℕ}

/-- Entry (r, c) of x · wa + a · wb + the bias row: the two row-by-column products and the bias of column c. -/
def pairProducts (x a : (⟨2, ![M, K]⟩ : Shape).Idx → EReal) (wa wb : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * wa (ix2 k (i 1)) + ∑ k : Fin K, a (ix2 (i 0) k) * wb (ix2 k (i 1)))
    + b (ix2 (0 : Fin 1) (i 1))

/-- The same layer followed by the rectifier: the larger of the entry and the f32 word of zero. -/
def pairProductsRelu (x a : (⟨2, ![M, K]⟩ : Shape).Idx → EReal) (wa wb : (⟨2, ![K, N]⟩ : Shape).Idx → EReal)
    (b : (⟨2, ![1, N]⟩ : Shape).Idx → EReal) : (⟨2, ![M, N]⟩ : Shape).Idx → EReal :=
  fun i => max (pairProducts x a wa wb b i) (Ideal.ofBits .f32 0x00000000#32)

/-- An entry of the layer depends only on row r of the two feature arrays, column c of the two weight arrays and
    entry c of the bias: a block of rows, read at its own coordinates, computes the whole array's entry. -/
theorem pairProducts_of_rows {Mb : ℕ}
    (X A : (⟨2, ![M, K]⟩ : Shape).Idx → EReal) (Wa Wb : (⟨2, ![K, N]⟩ : Shape).Idx → EReal) (B : (⟨2, ![1, N]⟩ : Shape).Idx → EReal)
    (x a : (⟨2, ![Mb, K]⟩ : Shape).Idx → EReal) (wa wb : (⟨2, ![K, N]⟩ : Shape).Idx → EReal) (b : (⟨2, ![1, N]⟩ : Shape).Idx → EReal)
    (j : (⟨2, ![Mb, N]⟩ : Shape).Idx) (i : (⟨2, ![M, N]⟩ : Shape).Idx)
    (hx : ∀ k : Fin K, x (ix2 (j 0) k) = X (ix2 (i 0) k)) (ha : ∀ k : Fin K, a (ix2 (j 0) k) = A (ix2 (i 0) k))
    (hwa : ∀ k : Fin K, wa (ix2 k (j 1)) = Wa (ix2 k (i 1))) (hwb : ∀ k : Fin K, wb (ix2 k (j 1)) = Wb (ix2 k (i 1)))
    (hb : b (ix2 (0 : Fin 1) (j 1)) = B (ix2 (0 : Fin 1) (i 1))) :
    pairProducts x a wa wb b j = pairProducts X A Wa Wb B i := by
  have e1 : ∑ k : Fin K, x (ix2 (j 0) k) * wa (ix2 k (j 1)) = ∑ k : Fin K, X (ix2 (i 0) k) * Wa (ix2 k (i 1)) :=
    Finset.sum_congr rfl fun k _ => congrArg₂ (· * ·) (hx k) (hwa k)
  have e2 : ∑ k : Fin K, a (ix2 (j 0) k) * wb (ix2 k (j 1)) = ∑ k : Fin K, A (ix2 (i 0) k) * Wb (ix2 k (i 1)) :=
    Finset.sum_congr rfl fun k _ => congrArg₂ (· * ·) (ha k) (hwb k)
  exact congrArg₂ (· + ·) (congrArg₂ (· + ·) e1 e2) hb

/-- A contraction of the joined rows [x | a] against W is the contraction of x against W's upper K rows plus the
    contraction of a against W's lower K rows. -/
theorem joined_contraction (hK : K + K = K2)
    (x a : (⟨2, ![M, K]⟩ : Shape).Idx → EReal) (cat : (⟨2, ![M, K2]⟩ : Shape).Idx → EReal) (W : (⟨2, ![K2, N]⟩ : Shape).Idx → EReal)
    (hl : ∀ (r : Fin M) (k : Fin K), cat (ix2 r ⟨k.val, by omega⟩) = x (ix2 r k))
    (hh : ∀ (r : Fin M) (k : Fin K), cat (ix2 r ⟨K + k.val, by omega⟩) = a (ix2 r k))
    (i : (⟨2, ![M, N]⟩ : Shape).Idx) :
    ∑ j : Fin K2, cat (ix2 (i 0) j) * W (ix2 j (i 1))
      = ∑ k : Fin K, x (ix2 (i 0) k) * W (ix2 (⟨k.val, by omega⟩ : Fin K2) (i 1))
        + ∑ k : Fin K, a (ix2 (i 0) k) * W (ix2 (⟨K + k.val, by omega⟩ : Fin K2) (i 1)) := by
  rw [sum_halves hK]
  exact congrArg₂ (· + ·)
    (Finset.sum_congr rfl fun k _ => congrArg (· * W (ix2 (⟨k.val, by omega⟩ : Fin K2) (i 1))) (hl (i 0) k))
    (Finset.sum_congr rfl fun k _ => congrArg (· * W (ix2 (⟨K + k.val, by omega⟩ : Fin K2) (i 1))) (hh (i 0) k))

end Cert.Sage

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.LibConcatAt.lean ====
/-
  Concatenations and reversals read at an index given by its coordinates.

  For any element type and any extents:
    * a concatenation of a LIST of pieces along the rows (axis 0) or along the columns (axis 1) of
      a matrix, read at (p, l): piece k, whose span along the axis starts at `pre` (the extents
      of the pieces before it added up), at the index with the axis coordinate `pre` less;
    * a concatenation of TWO pieces along axis 1 or axis 2 of a rank-4 array, read at (a, p, c, e)
      or (a, b, p, e): the first piece at the same coordinates when p is below its extent, the
      second at the axis coordinate less the first extent otherwise;
    * a reversal along axis 1 or axis 2 of a rank-4 array: the operand at the mirrored coordinate
      on that axis (extent - 1 - coordinate), the other coordinates kept.
  Each is the library's general statement (Lib/Pipeline/Value.lean `concatenate_apply_piece`,
  `concatenate_pair_apply_left` / `_right`; PureOps/ShapeOps.lean `Host.reverse`) with the
  per-axis side conditions discharged once.
-/
import Idealize.ShloMosaic.Lib.Pipeline.Value
import Idealize.ShloMosaic.Lib.ValueIdx

namespace Cert.ConcatAt

open Idealize.ShloMosaic Idealize.ShloMosaic.ValueIdx

variable {α : Type}

/-- Pieces stacked along the ROWS of a matrix: row `p` falls in piece `k`, at its row `r = p - pre`. -/
theorem rows_piece {t0 t1 : ℕ} (xs : List ((s : Shape) × (s.Idx → α)))
    (h : Shape.Concatenates (xs.map (·.1)) (⟨2, ![t0, t1]⟩ : Shape) (0 : Fin 2))
    (p : Fin t0) (l : Fin t1) (k : ℕ) (hk : k < xs.length) {m : ℕ} (x₁ : (⟨2, ![m, t1]⟩ : Shape).Idx → α)
    (hxk : xs[k] = ⟨(⟨2, ![m, t1]⟩ : Shape), x₁⟩) (pre : ℕ)
    (hpre : (((xs.take k).map (·.1)).map fun s =>
      if h : s.rank = (⟨2, ![t0, t1]⟩ : Shape).rank then s.size ((0 : Fin 2).cast h.symm) else 0).sum = pre)
    (r : Fin m) (hr : pre + r.val = p.val) :
    concatenate (⟨2, ![t0, t1]⟩ : Shape) (0 : Fin 2) xs h (ix2 p l) = x₁ (ix2 r l) :=
  concatenate_apply_piece (t := (⟨2, ![t0, t1]⟩ : Shape)) (0 : Fin 2) xs h (ix2 p l) k hk _ x₁ hxk rfl pre hpre (ix2 r l)
    (fun b hb => by
      match b with
      | ⟨0, _⟩ => exact absurd rfl hb
      | ⟨1, _⟩ => rfl)
    (by exact hr)

/-- Pieces laid side by side along the COLUMNS of a matrix: column `q` falls in piece `k`, at its column `r = q - pre`. -/
theorem cols_piece {t0 t1 : ℕ} (xs : List ((s : Shape) × (s.Idx → α)))
    (h : Shape.Concatenates (xs.map (·.1)) (⟨2, ![t0, t1]⟩ : Shape) (1 : Fin 2))
    (p : Fin t0) (q : Fin t1) (k : ℕ) (hk : k < xs.length) {m : ℕ} (x₁ : (⟨2, ![t0, m]⟩ : Shape).Idx → α)
    (hxk : xs[k] = ⟨(⟨2, ![t0, m]⟩ : Shape), x₁⟩) (pre : ℕ)
    (hpre : (((xs.take k).map (·.1)).map fun s =>
      if h : s.rank = (⟨2, ![t0, t1]⟩ : Shape).rank then s.size ((1 : Fin 2).cast h.symm) else 0).sum = pre)
    (r : Fin m) (hr : pre + r.val = q.val) :
    concatenate (⟨2, ![t0, t1]⟩ : Shape) (1 : Fin 2) xs h (ix2 p q) = x₁ (ix2 p r) :=
  concatenate_apply_piece (t := (⟨2, ![t0, t1]⟩ : Shape)) (1 : Fin 2) xs h (ix2 p q) k hk _ x₁ hxk rfl pre hpre (ix2 p r)
    (fun b hb => by
      match b with
      | ⟨0, _⟩ => rfl
      | ⟨1, _⟩ => exact absurd rfl hb)
    (by exact hr)

/-- Two pieces along axis 1 of a rank-4 array, the coordinate in the FIRST. -/
theorem axis1_left {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m1) (hr : r.val = p.val) :
    concatenate (⟨4, ![n0, t1, n2, n3]⟩ : Shape) (1 : Fin 4) [⟨_, x₁⟩, ⟨_, x₂⟩] h (ix4 a p c e) = x₁ (ix4 a r c e) :=
  concatenate_pair_apply_left (t := (⟨4, ![n0, t1, n2, n3]⟩ : Shape)) (1 : Fin 4) x₁ x₂ h (ix4 a p c e) rfl (ix4 a r c e) (fun b => by
    match b with
    | ⟨0, _⟩ => rfl
    | ⟨1, _⟩ => exact hr
    | ⟨2, _⟩ => rfl
    | ⟨3, _⟩ => rfl)

/-- Two pieces along axis 1 of a rank-4 array, the coordinate in the SECOND. -/
theorem axis1_right {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m2) (hr : r.val + m1 = p.val) :
    concatenate (⟨4, ![n0, t1, n2, n3]⟩ : Shape) (1 : Fin 4) [⟨_, x₁⟩, ⟨_, x₂⟩] h (ix4 a p c e) = x₂ (ix4 a r c e) :=
  concatenate_pair_apply_right (t := (⟨4, ![n0, t1, n2, n3]⟩ : Shape)) (1 : Fin 4) x₁ x₂ h (ix4 a p c e) rfl rfl (ix4 a r c e) (fun b hb => by
    match b with
    | ⟨0, _⟩ => rfl
    | ⟨1, _⟩ => exact absurd rfl hb
    | ⟨2, _⟩ => rfl
    | ⟨3, _⟩ => rfl) (by exact hr)

/-- Two pieces along axis 2 of a rank-4 array, the coordinate in the FIRST. -/
theorem axis2_left {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m1) (hr : r.val = p.val) :
    concatenate (⟨4, ![n0, n1, t2, n3]⟩ : Shape) (2 : Fin 4) [⟨_, x₁⟩, ⟨_, x₂⟩] h (ix4 a b p e) = x₁ (ix4 a b r e) :=
  concatenate_pair_apply_left (t := (⟨4, ![n0, n1, t2, n3]⟩ : Shape)) (2 : Fin 4) x₁ x₂ h (ix4 a b p e) rfl (ix4 a b r e) (fun d => by
    match d with
    | ⟨0, _⟩ => rfl
    | ⟨1, _⟩ => rfl
    | ⟨2, _⟩ => exact hr
    | ⟨3, _⟩ => rfl)

/-- Two pieces along axis 2 of a rank-4 array, the coordinate in the SECOND. -/
theorem axis2_right {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m2) (hr : r.val + m1 = p.val) :
    concatenate (⟨4, ![n0, n1, t2, n3]⟩ : Shape) (2 : Fin 4) [⟨_, x₁⟩, ⟨_, x₂⟩] h (ix4 a b p e) = x₂ (ix4 a b r e) :=
  concatenate_pair_apply_right (t := (⟨4, ![n0, n1, t2, n3]⟩ : Shape)) (2 : Fin 4) x₁ x₂ h (ix4 a b p e) rfl rfl (ix4 a b r e) (fun d hd => by
    match d with
    | ⟨0, _⟩ => rfl
    | ⟨1, _⟩ => rfl
    | ⟨2, _⟩ => exact absurd rfl hd
    | ⟨3, _⟩ => rfl) (by exact hr)

/-- The one-element axis list does not hold another axis. -/
private theorem not_mem_single {N : ℕ} {a b : Fin N} (h : a.val ≠ b.val) : a ∉ [b] :=
  fun hm => Fin.ne_of_val_ne h (List.mem_singleton.mp hm)

/-- A rank-4 array reversed along axis 1 reads the mirrored coordinate there. -/
theorem reverse_axis1 {n0 n1 n2 n3 : ℕ} (v : (⟨4, ![n0, n1, n2, n3]⟩ : Shape).Idx → α)
    (a : Fin n0) (j : Fin n1) (c : Fin n2) (e : Fin n3) :
    Host.reverse (s := (⟨4, ![n0, n1, n2, n3]⟩ : Shape)) [(1 : Fin 4)] v (ix4 a j c e) = v (ix4 a j.rev c e) := by
  unfold Host.reverse
  refine congrArg v (funext fun d => ?_)
  match d with
  | ⟨0, _⟩ => exact if_neg (not_mem_single (N := 4) (b := 1) (show (0 : ℕ) ≠ 1 by omega))
  | ⟨1, _⟩ => exact if_pos (List.mem_singleton.mpr (Fin.ext rfl))
  | ⟨2, _⟩ => exact if_neg (not_mem_single (N := 4) (b := 1) (show (2 : ℕ) ≠ 1 by omega))
  | ⟨3, _⟩ => exact if_neg (not_mem_single (N := 4) (b := 1) (show (3 : ℕ) ≠ 1 by omega))

/-- A rank-4 array reversed along axis 2 reads the mirrored coordinate there. -/
theorem reverse_axis2 {n0 n1 n2 n3 : ℕ} (v : (⟨4, ![n0, n1, n2, n3]⟩ : Shape).Idx → α)
    (a : Fin n0) (b : Fin n1) (j : Fin n2) (e : Fin n3) :
    Host.reverse (s := (⟨4, ![n0, n1, n2, n3]⟩ : Shape)) [(2 : Fin 4)] v (ix4 a b j e) = v (ix4 a b j.rev e) := by
  unfold Host.reverse
  refine congrArg v (funext fun d => ?_)
  match d with
  | ⟨0, _⟩ => exact if_neg (not_mem_single (N := 4) (b := 2) (show (0 : ℕ) ≠ 2 by omega))
  | ⟨1, _⟩ => exact if_neg (not_mem_single (N := 4) (b := 2) (show (1 : ℕ) ≠ 2 by omega))
  | ⟨2, _⟩ => exact if_pos (List.mem_singleton.mpr (Fin.ext rfl))
  | ⟨3, _⟩ => exact if_neg (not_mem_single (N := 4) (b := 2) (show (3 : ℕ) ≠ 2 by omega))

end Cert.ConcatAt
-- ==== Proof.SageLayer.lean ====
/-
  One graph layer, as each side spells it, read entry by entry on the extended reals.

  The host spells a layer as: join x and a side by side, take the general dot product with the whole weight
  matrix, add the bias laid out [N] → [1, N] → [M, N].  A kernel block spells it as: two matrix products into zero
  accumulators, one per half of the weight matrix, added, plus the bias row broadcast down the block.  Both are the
  function `pairProducts` of x, a, the upper and lower halves of the weight matrix and the bias as a [1, N] row.
-/
import proofs.«156740_j42185168781873_1_alg».proof.Proof.SageAlgebra
import proofs.«156740_j42185168781873_1_alg».proof.Proof.LibRowColumn
import proofs.«156740_j42185168781873_1_alg».proof.Proof.LibConcatAt

noncomputable section

namespace Cert.Sage

open Idealize.ShloMosaic Idealize.ShloMosaic.ValueIdx

variable {M K K2 N : ℕ}

section Layout
variable {α : Type}

/-- A vector laid out as a row and then repeated down the rows reads, at (r, c), its entry c. -/
theorem row_repeated_entry
    (hb1 : (⟨1, ![N]⟩ : Shape).BroadcastsInDim (⟨2, ![1, N]⟩ : Shape) (![1] : Fin 1 → Fin 2))
    (hb2 : (⟨2, ![1, N]⟩ : Shape).BroadcastsInDim (⟨2, ![M, N]⟩ : Shape) (![0, 1] : Fin 2 → Fin 2))
    (b : (⟨1, ![N]⟩ : Shape).Idx → α) (i : (⟨2, ![M, N]⟩ : Shape).Idx) :
    broadcastInDim (⟨2, ![M, N]⟩ : Shape) ![0, 1] hb2 (broadcastInDim (⟨2, ![1, N]⟩ : Shape) ![1] hb1 b) i = b (ix1 (i 1)) := by
  have hi : (i 1).val < N := (i 1).isLt
  refine (broadcastInDim_apply _ hb2 _ i (ix2 (0 : Fin 1) (i 1)) fun a => ?_).trans
    (broadcastInDim_apply _ hb1 b _ (ix1 (i 1)) fun a => ?_)
  · match a with
    | ⟨0, _⟩ => show (0 : ℕ) = if (1 : ℕ) = 1 then 0 else (i 0).val; rw [if_pos rfl]
    | ⟨1, _⟩ =>
      show (i 1).val = if N = 1 then 0 else (i 1).val
      split
      · omega
      · rfl
  · match a with
    | ⟨0, _⟩ =>
      show (i 1).val = if N = 1 then 0 else (i 1).val
      split
      · omega
      · rfl

/-- A vector reshaped to a one-row matrix reads, at (0, c), its entry c. -/
theorem row_reshaped_entry (hsc : (⟨1, ![N]⟩ : Shape).ShapeCasts (⟨2, ![1, N]⟩ : Shape))
    (b : (⟨1, ![N]⟩ : Shape).Idx → α) (c : Fin N) :
    shapeCast (⟨2, ![1, N]⟩ : Shape) b hsc (ix2 (0 : Fin 1) c) = b (ix1 c) :=
  shapeCast_apply b hsc _ _ (by
    rw [Shape.rowMajor_val_one, Shape.rowMajor_val_two]
    show c.val = 0 * N + c.val
    omega)

/-- The upper K rows of a matrix, sliced out, read at (k, c) the matrix at (k, c). -/
theorem upper_rows_entry (hs0 : (⟨2, ![K2, N]⟩ : Shape).Slices ![0, 0] (⟨2, ![K, N]⟩ : Shape))
    (W : (⟨2, ![K2, N]⟩ : Shape).Idx → α) (k : Fin K) (c : Fin N) (hk : k.val < K2) :
    extractStridedSlice (⟨2, ![K, N]⟩ : Shape) ![0, 0] W hs0 (ix2 k c) = W (ix2 (⟨k.val, hk⟩ : Fin K2) c) :=
  extractStridedSlice_apply _ W hs0 _ _ fun a => match a with
    | ⟨0, _⟩ => by show k.val = 0 + k.val; omega
    | ⟨1, _⟩ => by show c.val = 0 + c.val; omega

/-- The lower K rows of a matrix, sliced out from row K, read at (k, c) the matrix at (K + k, c). -/
theorem lower_rows_entry (hs1 : (⟨2, ![K2, N]⟩ : Shape).Slices ![K, 0] (⟨2, ![K, N]⟩ : Shape))
    (W : (⟨2, ![K2, N]⟩ : Shape).Idx → α) (k : Fin K) (c : Fin N) (hk : K + k.val < K2) :
    extractStridedSlice (⟨2, ![K, N]⟩ : Shape) ![K, 0] W hs1 (ix2 k c) = W (ix2 (⟨K + k.val, hk⟩ : Fin K2) c) :=
  extractStridedSlice_apply _ W hs1 _ _ fun a => match a with
    | ⟨0, _⟩ => by show K + k.val = K + k.val; rfl
    | ⟨1, _⟩ => by show c.val = 0 + c.val; omega

/-- A one-row matrix broadcast down M rows reads, at (r, c), the row at (0, c). -/
theorem row_down_entry (hbr : (⟨2, ![1, N]⟩ : Shape).Broadcasts (⟨2, ![M, N]⟩ : Shape))
    (b : (⟨2, ![1, N]⟩ : Shape).Idx → α) (i : (⟨2, ![M, N]⟩ : Shape).Idx) :
    broadcastTo (⟨2, ![M, N]⟩ : Shape) b hbr i = b (ix2 (0 : Fin 1) (i 1)) := by
  have hi : (i 1).val < N := (i 1).isLt
  refine broadcastTo_apply b hbr i _ fun a => ?_
  match a with
  | ⟨0, _⟩ => show (0 : ℕ) = if (1 : ℕ) = 1 then 0 else _; rw [if_pos rfl]
  | ⟨1, _⟩ =>
    show (i 1).val = if N = 1 then 0 else (i 1).val
    split
    · omega
    · rfl

end Layout

/-- THE MEAN, two ways, as whole arrays: the neighbour sums times the repeated reciprocal 1 / max(count, 1) are the
    neighbour sums divided by the repeated max(count, 1) — entry by entry `mul_recip_floor`, whatever the sums and the
    counts are. -/
theorem mean_forms {R C : ℕ}
    (hb0 : (⟨0, ![]⟩ : Shape).BroadcastsInDim (⟨1, ![R]⟩ : Shape) (![] : Fin 0 → Fin 1))
    (hb1 : (⟨1, ![R]⟩ : Shape).BroadcastsInDim (⟨2, ![R, 1]⟩ : Shape) (![0] : Fin 1 → Fin 2))
    (hb2 : (⟨2, ![R, 1]⟩ : Shape).BroadcastsInDim (⟨2, ![R, C]⟩ : Shape) (![0, 1] : Fin 2 → Fin 2))
    (s : FVec Ideal (⟨2, ![R, C]⟩ : Shape) .f32) (n : FVec Ideal (⟨1, ![R]⟩ : Shape) .f32) :
    mulf s (broadcastInDim (⟨2, ![R, C]⟩ : Shape) ![0, 1] hb2 (broadcastInDim (⟨2, ![R, 1]⟩ : Shape) ![0] hb1
      (Host.divf (broadcastInDim (⟨1, ![R]⟩ : Shape) ![] hb0 (constant (F := Ideal) (⟨0, ![]⟩ : Shape) .f32 0x3F800000#32))
        (maximumf n (broadcastInDim (⟨1, ![R]⟩ : Shape) ![] hb0 (constant (F := Ideal) (⟨0, ![]⟩ : Shape) .f32 0x3F800000#32))))))
    = Host.divf s (broadcastInDim (⟨2, ![R, C]⟩ : Shape) ![0, 1] hb2 (broadcastInDim (⟨2, ![R, 1]⟩ : Shape) ![0] hb1
        (maximumf n (broadcastInDim (⟨1, ![R]⟩ : Shape) ![] hb0 (constant (F := Ideal) (⟨0, ![]⟩ : Shape) .f32 0x3F800000#32))))) := by
  funext i
  show s i * Ideal.div (Ideal.ofBits .f32 0x3F800000#32) (max (n _) (Ideal.ofBits .f32 0x3F800000#32))
    = Ideal.div (s i) (max (n _) (Ideal.ofBits .f32 0x3F800000#32))
  rw [one_f32]
  exact mul_recip_floor _ _

/-- THE HOST'S LAYER at an entry: the dot product of the joined features with the whole weight matrix plus the
    repeated bias is the layer function of x, a, the two sliced halves of the weight matrix and the reshaped bias. -/
theorem host_layer (hK : K + K = K2)
    (d : DotDims (⟨2, ![M, K2]⟩ : Shape) (⟨2, ![K2, N]⟩ : Shape) (⟨2, ![M, N]⟩ : Shape))
    (hr : d.contr.rank = 1) (hs : d.contr.size ⟨0, by omega⟩ = K2)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (hc : Shape.Concatenates [(⟨2, ![M, K]⟩ : Shape), (⟨2, ![M, K]⟩ : Shape)] (⟨2, ![M, K2]⟩ : Shape) (1 : Fin 2))
    (hb1 : (⟨1, ![N]⟩ : Shape).BroadcastsInDim (⟨2, ![1, N]⟩ : Shape) (![1] : Fin 1 → Fin 2))
    (hb2 : (⟨2, ![1, N]⟩ : Shape).BroadcastsInDim (⟨2, ![M, N]⟩ : Shape) (![0, 1] : Fin 2 → Fin 2))
    (hs0 : (⟨2, ![K2, N]⟩ : Shape).Slices ![0, 0] (⟨2, ![K, N]⟩ : Shape))
    (hs1 : (⟨2, ![K2, N]⟩ : Shape).Slices ![K, 0] (⟨2, ![K, N]⟩ : Shape))
    (hsc : (⟨1, ![N]⟩ : Shape).ShapeCasts (⟨2, ![1, N]⟩ : Shape))
    (x a : FVec Ideal (⟨2, ![M, K]⟩ : Shape) .f32) (W : FVec Ideal (⟨2, ![K2, N]⟩ : Shape) .f32)
    (b : FVec Ideal (⟨1, ![N]⟩ : Shape) .f32) :
    addf (Host.dotGeneral d none
        (concatenate (⟨2, ![M, K2]⟩ : Shape) (1 : Fin 2) [⟨(⟨2, ![M, K]⟩ : Shape), x⟩, ⟨(⟨2, ![M, K]⟩ : Shape), a⟩] hc) W)
      (broadcastInDim (⟨2, ![M, N]⟩ : Shape) ![0, 1] hb2 (broadcastInDim (⟨2, ![1, N]⟩ : Shape) ![1] hb1 b))
    = pairProducts x a (extractStridedSlice (⟨2, ![K, N]⟩ : Shape) ![0, 0] W hs0)
        (extractStridedSlice (⟨2, ![K, N]⟩ : Shape) ![K, 0] W hs1) (shapeCast (⟨2, ![1, N]⟩ : Shape) b hsc) := by
  funext i
  show FloatOps.dotGeneral d none .single _ W i + _ = _
  rw [row_repeated_entry hb1 hb2 b i, Cert.Lib.RowColumn.dotGeneral_entry d hr hs h1 h2 h3 h4,
    joined_contraction hK x a
      (concatenate (⟨2, ![M, K2]⟩ : Shape) (1 : Fin 2) [⟨(⟨2, ![M, K]⟩ : Shape), x⟩, ⟨(⟨2, ![M, K]⟩ : Shape), a⟩] hc) W
      (fun r k => Cert.ConcatAt.cols_piece (α := EReal) [⟨(⟨2, ![M, K]⟩ : Shape), x⟩, ⟨(⟨2, ![M, K]⟩ : Shape), a⟩] hc
        r ⟨k.val, by omega⟩ 0 (by simp) x rfl 0 rfl k (by simp))
      (fun r k => Cert.ConcatAt.cols_piece (α := EReal) [⟨(⟨2, ![M, K]⟩ : Shape), x⟩, ⟨(⟨2, ![M, K]⟩ : Shape), a⟩] hc
        r ⟨K + k.val, by omega⟩ 1 (by simp) a rfl K (by simp) k rfl)]
  unfold pairProducts
  refine congrArg₂ (· + ·) (congrArg₂ (· + ·) (Finset.sum_congr rfl fun k _ => ?_) (Finset.sum_congr rfl fun k _ => ?_)) ?_
  · exact congrArg (x (ix2 (i 0) k) * ·) (upper_rows_entry hs0 W k (i 1) (by omega)).symm
  · exact congrArg (a (ix2 (i 0) k) * ·) (lower_rows_entry hs1 W k (i 1) (by have := k.isLt; omega)).symm
  · exact (row_reshaped_entry hsc b (i 1)).symm

/-- THE KERNEL BLOCK'S LAYER at an entry: two matrix products into zero accumulators, added, plus the bias row
    broadcast down the block, is the layer function of the block's operands (a change of float format is the
    identity on the extended reals, so the operands may be of any format). -/
theorem block_layer {φ₁ φ₂ : FTy}
    (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (hbr : (⟨2, ![1, N]⟩ : Shape).Broadcasts (⟨2, ![M, N]⟩ : Shape))
    (x a : FVec Ideal (⟨2, ![M, K]⟩ : Shape) φ₁) (wa wb : FVec Ideal (⟨2, ![K, N]⟩ : Shape) φ₂)
    (b : FVec Ideal (⟨2, ![1, N]⟩ : Shape) .f32) :
    addf (addf (matmul d none x wa (constant (F := Ideal) (⟨2, ![M, N]⟩ : Shape) .f32 0x00000000#32))
        (matmul d none a wb (constant (F := Ideal) (⟨2, ![M, N]⟩ : Shape) .f32 0x00000000#32)))
      (broadcastTo (⟨2, ![M, N]⟩ : Shape) b hbr)
    = pairProducts x a wa wb b := by
  funext i
  show (FloatOps.matmul d none x wa _ i + FloatOps.matmul d none a wb _ i) + _ = _
  rw [Cert.Lib.RowColumn.matmul_zero_entry d hr hs h1 h2 h3 h4, Cert.Lib.RowColumn.matmul_zero_entry d hr hs h1 h2 h3 h4,
    row_down_entry hbr b i]
  rfl

end Cert.Sage

end
-- ==== Proof.KernelBlocks.lean ====
/-
  What each of the two kernel launches leaves in its output array.

  Each launch runs over ten grid points; point t reads rows 1000·t … 1000·t + 999 of the node features and of the
  neighbour means, the whole of the two weight halves and of the bias row, and writes rows 1000·t … 1000·t + 999 of
  the output.  The body's stored value is the layer function of the loaded blocks (two matrix products into zero
  accumulators, added, plus the bias row; the first launch then takes the larger of that and zero).  An entry of the
  layer depends only on its own row of the features, so the block written at point t is rows 1000·t … of the layer
  function of the WHOLE arrays; the ten blocks tile the 10000 rows, so the output array ends as that function.
-/
import proofs.«156740_j42185168781873_1_alg».proof.Proof.Gen.KernelIdeal.Frame
import proofs.«156740_j42185168781873_1_alg».proof.Proof.SageLayer
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

/-! ## The two matrix products' dimension numbers: rows of the left against columns of the right -/

theorem d0_lhs0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem d0_lhs1 (i : S1000x512.Idx) (q : dot_S1000x512_S512x512_S1000x512_1_0_0_1_n_n.contr.Idx) : (dot_S1000x512_S512x512_S1000x512_1_0_0_1_n_n.lhsIdx i q 1).val = (q ⟨0, by decide⟩).val :=
  dot_S1000x512_S512x512_S1000x512_1_0_0_1_n_n.lhsIdx_val_of_single rfl i q
theorem d0_rhs0 (i : S1000x512.Idx) (q : dot_S1000x512_S512x512_S1000x512_1_0_0_1_n_n.contr.Idx) : (dot_S1000x512_S512x512_S1000x512_1_0_0_1_n_n.rhsIdx i q 0).val = (q ⟨0, by decide⟩).val :=
  dot_S1000x512_S512x512_S1000x512_1_0_0_1_n_n.rhsIdx_val_of_single rfl i q
theorem d0_rhs1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

theorem d1_lhs0 (i : S1000x128.Idx) (q : dot_S1000x512_S512x128_S1000x128_1_0_0_1_n_n.contr.Idx) : (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
theorem d1_lhs1 (i : S1000x128.Idx) (q : dot_S1000x512_S512x128_S1000x128_1_0_0_1_n_n.contr.Idx) : (dot_S1000x512_S512x128_S1000x128_1_0_0_1_n_n.lhsIdx i q 1).val = (q ⟨0, by decide⟩).val :=
  dot_S1000x512_S512x128_S1000x128_1_0_0_1_n_n.lhsIdx_val_of_single rfl i q
theorem d1_rhs0 (i : S1000x128.Idx) (q : dot_S1000x512_S512x128_S1000x128_1_0_0_1_n_n.contr.Idx) : (dot_S1000x512_S512x128_S1000x128_1_0_0_1_n_n.rhsIdx i q 0).val = (q ⟨0, by decide⟩).val :=
  dot_S1000x512_S512x128_S1000x128_1_0_0_1_n_n.rhsIdx_val_of_single rfl i q
theorem d1_rhs1 (i : S1000x128.Idx) (q : dot_S1000x512_S512x128_S1000x128_1_0_0_1_n_n.contr.Idx) : (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-! ## The bodies' stored values -/

/-- The first launch's stored block: the rectified layer function of the five loaded blocks. -/
theorem pay0_eq (x0 x1 : Vec Ideal S1000x512 .f32) (x2 x3 : Vec Ideal S512x512 .f32) (x4 : Vec Ideal S1x512 .f32) :
    k0_pay1 (F := Ideal) x0 x1 x2 x3 x4 = pairProductsRelu (M := 1000) (K := 512) (N := 512) x0 x1 x2 x3 x4 := by
  unfold k0_pay1
  simp only [shapeCast_self]
  rw [block_layer dot_S1000x512_S512x512_S1000x512_1_0_0_1_n_n rfl rfl d0_lhs0 d0_lhs1 d0_rhs0 d0_rhs1 broadcasts_S1x512_S1000x512]
  rfl

/-- The second launch's stored block: the layer function of the five loaded blocks. -/
theorem pay1_eq (x0 x1 : Vec Ideal S1000x512 .f32) (x2 x3 : Vec Ideal S512x128 .f32) (x4 : Vec Ideal S1x128 .f32) :
    k1_pay1 (F := Ideal) x0 x1 x2 x3 x4 = pairProducts (M := 1000) (K := 512) (N := 128) x0 x1 x2 x3 x4 := by
  unfold k1_pay1
  simp only [shapeCast_self]
  rw [block_layer dot_S1000x512_S512x128_S1000x128_1_0_0_1_n_n rfl rfl d1_lhs0 d1_lhs1 d1_rhs0 d1_rhs1 broadcasts_S1x128_S1000x128]
  rfl

/-- The loads and the store are at offset zero on both axes. -/
theorem hz : (![0, 0] : Fin 2 → Nat) = fun _ => 0 := funext fun a => by fin_cases a <;> rfl

section Arrays
-- the TensorCore's buffer contents when a launch is entered
variable (V : (c : Dev nD) → (b : Ref sig .tc) → Buf (Elt Ideal) ((c : Thread nD τ).loc b))

/-! ## Launch 0: from blocks to the array -/

/-- The printed index maps over the grid: the row-block windows sit at block t of the rows and block 0 of the
    columns, the weight halves and the bias at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the layer function of the arrays as the launch finds them. -/
theorem flushed0_eq (c : Dev nD) (t : Fin cfg0.N) :
    (dat0 V c).flushed 5 t = ((cfg0.win 5).blk t).view.read (Elt Ideal)
      (pairProductsRelu (M := 10000) (K := 512) (N := 512) (V c main_arg0) (V c main_v24) (V c main_v8) (V c main_v9) (V c main_v25)) := by
  show (cfg0.win 5).cut (grid0.coords t) ((dat0 V c).after 5 t) = _
  rw [after0_5]
  unfold out0_5
  rw [View.canon_unit_zero hz]
  simp only [View.ld_unit_zero (S := S1000x512) hz, View.ld_unit_zero (S := S512x512) hz, View.ld_unit_zero (S := S1x512) hz]
  rw [pay0_eq]
  obtain ⟨e00, e01, e10, e11, e20, e21, e30, e31, e40, e41, e50, e51⟩ := idx_facts0 t
  funext j
  have hj0 : (j 0).val < 1000 := (j 0).isLt
  have hj1 : (j 1).val < 512 := (j 1).isLt
  show max (pairProducts (M := 1000) (K := 512) (N := 512) (iblk0 V c 0 t) (iblk0 V c 1 t) (iblk0 V c 2 t) (iblk0 V c 3 t) (iblk0 V c 4 t) j) (Ideal.ofBits .f32 0x00000000#32)
    = max (pairProducts (M := 10000) (K := 512) (N := 512) (V c main_arg0) (V c main_v24) (V c main_v8) (V c main_v9) (V c main_v25) (((cfg0.win 5).blk t).view.emb j)) (Ideal.ofBits .f32 0x00000000#32)
  refine congrArg (max · (Ideal.ofBits .f32 0x00000000#32)) ?_
  refine pairProducts_of_rows (M := 10000) (K := 512) (N := 512) (Mb := 1000)
    (V c main_arg0) (V c main_v24) (V c main_v8) (V c main_v9) (V c main_v25)
    (iblk0 V c 0 t) (iblk0 V c 1 t) (iblk0 V c 2 t) (iblk0 V c 3 t) (iblk0 V c 4 t)
    j (((cfg0.win 5).blk t).view.emb j) ?_ ?_ ?_ ?_ ?_
  · intro k
    show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 1000 + 1 * (j 0).val = win0_5.index t (0 : Fin 2) * 1000 + 1 * (j 0).val; omega
    | ⟨1, _⟩ => show win0_0.index t (1 : Fin 2) * 512 + 1 * k.val = k.val; omega
  · intro k
    show V c main_v24 (((cfg0.win 1).blk t).view.emb (ix2 (j 0) k)) = V c main_v24 (ix2 ((((cfg0.win 5).blk t).view.emb j) 0) k)
    refine congrArg (V c main_v24) (funext fun a => Fin.ext ?_)
    match a with
    | ⟨0, _⟩ => show win0_1.index t (0 : Fin 2) * 1000 + 1 * (j 0).val = win0_5.index t (0 : Fin 2) * 1000 + 1 * (j 0).val; omega
    | ⟨1, _⟩ => show win0_1.index t (1 : Fin 2) * 512 + 1 * k.val = k.val; omega
  · intro k
    show V c main_v8 (((cfg0.win 2).blk t).view.emb (ix2 k (j 1))) = V c main_v8 (ix2 k ((((cfg0.win 5).blk t).view.emb j) 1))
    refine congrArg (V c main_v8) (funext fun a => Fin.ext ?_)
    match a with
    | ⟨0, _⟩ => show win0_2.index t (0 : Fin 2) * 512 + 1 * k.val = k.val; omega
    | ⟨1, _⟩ => show win0_2.index t (1 : Fin 2) * 512 + 1 * (j 1).val = win0_5.index t (1 : Fin 2) * 512 + 1 * (j 1).val; omega
  · intro k
    show V c main_v9 (((cfg0.win 3).blk t).view.emb (ix2 k (j 1))) = V c main_v9 (ix2 k ((((cfg0.win 5).blk t).view.emb j) 1))
    refine congrArg (V c main_v9) (funext fun a => Fin.ext ?_)
    match a with
    | ⟨0, _⟩ => show win0_3.index t (0 : Fin 2) * 512 + 1 * k.val = k.val; omega
    | ⟨1, _⟩ => show win0_3.index t (1 : Fin 2) * 512 + 1 * (j 1).val = win0_5.index t (1 : Fin 2) * 512 + 1 * (j 1).val; omega
  · show V c main_v25 (((cfg0.win 4).blk t).view.emb (ix2 (0 : Fin 1) (j 1))) = V c main_v25 (ix2 (0 : Fin 1) ((((cfg0.win 5).blk t).view.emb j) 1))
    refine congrArg (V c main_v25) (funext fun a => Fin.ext ?_)
    match a with
    | ⟨0, _⟩ => show win0_4.index t (0 : Fin 2) * 1 + 1 * 0 = 0; omega
    | ⟨1, _⟩ => show win0_4.index t (1 : Fin 2) * 512 + 1 * (j 1).val = win0_5.index t (1 : Fin 2) * 512 + 1 * (j 1).val; omega

/-- An index of the output array is in point t's block iff each coordinate is in the block's range on its axis. -/
theorem mem_blk0 (t : Fin cfg0.N) (i : S10000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v26).slice (win0_5.rect t)).set ↔ _
  rw [View.set_slice_whole, Rect.mem_set_unit]
  exact Iff.rfl

/-- The ten blocks tile the rows: row r lies in the block of point r / 1000. -/
theorem cover0 (i : S10000x512.Idx) : ∃ t : Fin cfg0.N, (cfg0.win 5).flush t = true ∧ i ∈ ((cfg0.win 5).blk t).view.set := by
  have hi0 : (i 0).val < 10000 := (i 0).isLt
  have hi1 : (i 1).val < 512 := (i 1).isLt
  let t : Fin cfg0.N := ⟨(i 0).val / 1000, by show (i 0).val / 1000 < grid0.N; rw [N_0]; omega⟩
  obtain ⟨-, -, -, -, -, -, -, -, -, -, e50, e51⟩ := idx_facts0 t
  have ht : t.val = (i 0).val / 1000 := rfl
  refine ⟨t, flush0_5 t, ?_⟩
  rw [mem_blk0]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-- THE OUTPUT ARRAY after launch 0: the layer function of the arrays as the launch finds them. -/
theorem final0 (c : Dev nD) : (dat0 V c).arrAt 5 cfg0.N
    = pairProductsRelu (M := 10000) (K := 512) (N := 512) (V c main_arg0) (V c main_v24) (V c main_v8) (V c main_v9) (V c main_v25) :=
  (dat0 V c).arrAt_eq_of_cover 5 _ (fun t _ => flushed0_eq V c t) (cover0)

/-! ## Launch 1: from blocks to the array -/

/-- The printed index maps over the grid: the row-block windows sit at block t of the rows and block 0 of the
    columns, the weight halves and the bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer function of the arrays as the launch finds them. -/
theorem flushed1_eq (c : Dev nD) (t : Fin cfg1.N) :
    (dat1 V c).flushed 5 t = ((cfg1.win 5).blk t).view.read (Elt Ideal)
      (pairProducts (M := 10000) (K := 512) (N := 128) (V c main_v26) (V c main_v39) (V c main_v10) (V c main_v11) (V c main_v40)) := by
  show (cfg1.win 5).cut (grid1.coords t) ((dat1 V c).after 5 t) = _
  rw [after1_5]
  unfold out1_5
  rw [View.canon_unit_zero hz]
  simp only [View.ld_unit_zero (S := S1000x512) hz, View.ld_unit_zero (S := S512x128) hz, View.ld_unit_zero (S := S1x128) hz]
  rw [pay1_eq]
  obtain ⟨e00, e01, e10, e11, e20, e21, e30, e31, e40, e41, e50, e51⟩ := idx_facts1 t
  funext j
  have hj0 : (j 0).val < 1000 := (j 0).isLt
  have hj1 : (j 1).val < 128 := (j 1).isLt
  show pairProducts (M := 1000) (K := 512) (N := 128) (iblk1 V c 0 t) (iblk1 V c 1 t) (iblk1 V c 2 t) (iblk1 V c 3 t) (iblk1 V c 4 t) j
    = pairProducts (M := 10000) (K := 512) (N := 128) (V c main_v26) (V c main_v39) (V c main_v10) (V c main_v11) (V c main_v40) (((cfg1.win 5).blk t).view.emb j)
  refine pairProducts_of_rows (M := 10000) (K := 512) (N := 128) (Mb := 1000)
    (V c main_v26) (V c main_v39) (V c main_v10) (V c main_v11) (V c main_v40)
    (iblk1 V c 0 t) (iblk1 V c 1 t) (iblk1 V c 2 t) (iblk1 V c 3 t) (iblk1 V c 4 t)
    j (((cfg1.win 5).blk t).view.emb j) ?_ ?_ ?_ ?_ ?_
  · intro k
    show V c main_v26 (((cfg1.win 0).blk t).view.emb (ix2 (j 0) k)) = V c main_v26 (ix2 ((((cfg1.win 5).blk t).view.emb j) 0) k)
    refine congrArg (V c main_v26) (funext fun a => Fin.ext ?_)
    match a with
    | ⟨0, _⟩ => show win1_0.index t (0 : Fin 2) * 1000 + 1 * (j 0).val = win1_5.index t (0 : Fin 2) * 1000 + 1 * (j 0).val; omega
    | ⟨1, _⟩ => show win1_0.index t (1 : Fin 2) * 512 + 1 * k.val = k.val; omega
  · intro k
    show V c main_v39 (((cfg1.win 1).blk t).view.emb (ix2 (j 0) k)) = V c main_v39 (ix2 ((((cfg1.win 5).blk t).view.emb j) 0) k)
    refine congrArg (V c main_v39) (funext fun a => Fin.ext ?_)
    match a with
    | ⟨0, _⟩ => show win1_1.index t (0 : Fin 2) * 1000 + 1 * (j 0).val = win1_5.index t (0 : Fin 2) * 1000 + 1 * (j 0).val; omega
    | ⟨1, _⟩ => show win1_1.index t (1 : Fin 2) * 512 + 1 * k.val = k.val; omega
  · intro k
    show V c main_v10 (((cfg1.win 2).blk t).view.emb (ix2 k (j 1))) = V c main_v10 (ix2 k ((((cfg1.win 5).blk t).view.emb j) 1))
    refine congrArg (V c main_v10) (funext fun a => Fin.ext ?_)
    match a with
    | ⟨0, _⟩ => show win1_2.index t (0 : Fin 2) * 512 + 1 * k.val = k.val; omega
    | ⟨1, _⟩ => show win1_2.index t (1 : Fin 2) * 128 + 1 * (j 1).val = win1_5.index t (1 : Fin 2) * 128 + 1 * (j 1).val; omega
  · intro k
    show V c main_v11 (((cfg1.win 3).blk t).view.emb (ix2 k (j 1))) = V c main_v11 (ix2 k ((((cfg1.win 5).blk t).view.emb j) 1))
    refine congrArg (V c main_v11) (funext fun a => Fin.ext ?_)
    match a with
    | ⟨0, _⟩ => show win1_3.index t (0 : Fin 2) * 512 + 1 * k.val = k.val; omega
    | ⟨1, _⟩ => show win1_3.index t (1 : Fin 2) * 128 + 1 * (j 1).val = win1_5.index t (1 : Fin 2) * 128 + 1 * (j 1).val; omega
  · show V c main_v40 (((cfg1.win 4).blk t).view.emb (ix2 (0 : Fin 1) (j 1))) = V c main_v40 (ix2 (0 : Fin 1) ((((cfg1.win 5).blk t).view.emb j) 1))
    refine congrArg (V c main_v40) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the output array is in point t's block iff each coordinate is in the block's range on its axis. -/
theorem mem_blk1 (t : Fin cfg1.N) (i : S10000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v41).slice (win1_5.rect t)).set ↔ _
  rw [View.set_slice_whole, Rect.mem_set_unit]
  exact Iff.rfl

/-- The ten blocks tile the rows: row r lies in the block of point r / 1000. -/
theorem cover1 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  let t : Fin cfg1.N := ⟨(i 0).val / 1000, by show (i 0).val / 1000 < grid1.N; rw [N_1]; omega⟩
  obtain ⟨-, -, -, -, -, -, -, -, -, -, e50, e51⟩ := idx_facts1 t
  have ht : t.val = (i 0).val / 1000 := rfl
  refine ⟨t, flush1_5 t, ?_⟩
  rw [mem_blk1]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 128 ≤ (i 1).val ∧ (i 1).val < win1_5.index t (1 : Fin 2) * 128 + 128; omega

/-- THE OUTPUT ARRAY after launch 1: the layer function of the arrays as the launch finds them. -/
theorem final1 (c : Dev nD) : (dat1 V c).arrAt 5 cfg1.N
    = pairProducts (M := 10000) (K := 512) (N := 128) (V c main_v26) (V c main_v39) (V c main_v10) (V c main_v11) (V c main_v40) :=
  (dat1 V c).arrAt_eq_of_cover 5 _ (fun t _ => flushed1_eq V c t) (cover1)

end Arrays

end Cert.KernelIdeal.Blocks

end
-- ==== Proof.KernelValue.lean ====
/-
  The value of the idealized kernel program: its result array as one function of the seven argument arrays.

  Before the first launch the host computes, once, the reciprocal 1 / max(count, 1) of every node's in-degree
  floored at one, the sum of every node's in-neighbour rows (a gather of the source rows scattered with addition
  onto the destination rows), their product — the neighbour mean —, the two halves of each weight matrix and the
  bias as a one-row matrix.  The first launch leaves h1 = max(h · W1[:512] + mean(h) · W1[512:] + b1, 0); between the
  launches the host takes the neighbour mean of h1 with the same reciprocal; the second launch leaves
  h1 · W2[:512] + mean(h1) · W2[512:] + b2.  Here each boundary's contents are read back through the fold of the host
  operations to the argument arrays, and the two launches' output arrays are the layer functions of module
  KernelBlocks.
-/
import proofs.«156740_j42185168781873_1_alg».proof.Proof.KernelBlocks
import Idealize.ShloMosaic.Lib.StableHlo.Run

set_option maxRecDepth 16384

noncomputable section

namespace Cert.KernelIdeal.Host

open Cert.KernelIdeal Cert.KernelIdeal.Gen Cert.KernelIdeal.Blocks Idealize.ShloMosaic Idealize.ShloMosaic.TcCoe
open Idealize.ShloMosaic.ValueIdx Idealize.SL.Sem Idealize.ShloMosaic.StableHlo Cert.Sage

/-! ## The host's pieces, as functions of their operands -/

/-- Every node's sum of in-neighbour rows: row src[e] of x added onto row dst[e], over the edges e (a negative
    source index counted from the end). -/
def nbrSum (x : FVec Ideal S10000x512 .f32) (src dst : IVec S160000 32) : FVec Ideal S10000x512 .f32 :=
  Host.scatterAdd scatter_S10000x512_S160000x1_S160000x512_1_0_0_1 (broadcastInDim S10000x512 ![] bcast_S_S10000x512 (constant S_ .f32 0x00000000#32)) (broadcastInDim S160000x1 ![0] bcast_S160000_S160000x1_0 dst) (Host.gather gather_S10000x512_S160000x1_S160000x512_1_0_n_n_0_1_1512 x (broadcastInDim S160000x1 ![0] bcast_S160000_S160000x1_0 (select (cmpi .slt src (broadcastInDim S160000 ![] bcast_S_S160000 (constantI S_ 32 0#32))) (addi src (broadcastInDim S160000 ![] bcast_S_S160000 (constantI S_ 32 10000#32))) src)))

/-- Every node's in-degree (ones added onto dst[e] over the edges), floored at one. -/
def degFloor (dst : IVec S160000 32) : FVec Ideal S10000 .f32 :=
  maximumf (Host.scatterAdd scatter_S10000_S160000x1_S160000_n_0_0_1 (broadcastInDim S10000 ![] bcast_S_S10000 (constant S_ .f32 0x00000000#32)) (broadcastInDim S160000x1 ![0] bcast_S160000_S160000x1_0 dst) (broadcastInDim S160000 ![] bcast_S_S160000 (constant S_ .f32 0x3F800000#32))) (broadcastInDim S10000 ![] bcast_S_S10000 (constant S_ .f32 0x3F800000#32))

/-- The reciprocal of the floored in-degree. -/
def degRecip (dst : IVec S160000 32) : FVec Ideal S10000 .f32 :=
  Host.divf (broadcastInDim S10000 ![] bcast_S_S10000 (constant S_ .f32 0x3F800000#32)) (degFloor dst)

/-- The neighbour mean as this program computes it: the neighbour sums times the reciprocal repeated along the rows. -/
def meanRecip (x : FVec Ideal S10000x512 .f32) (src dst : IVec S160000 32) : FVec Ideal S10000x512 .f32 :=
  mulf (nbrSum x src dst) (broadcastInDim S10000x512 ![0, 1] bcast_S10000x1_S10000x512_0_1 (broadcastInDim S10000x1 ![0] bcast_S10000_S10000x1_0 (degRecip dst)))

/-- The first layer's output. -/
def hidden (h : FVec Ideal S10000x512 .f32) (W1 : FVec Ideal S1024x512 .f32) (b1 : FVec Ideal S512 .f32) (src dst : IVec S160000 32) :
    FVec Ideal S10000x512 .f32 :=
  pairProductsRelu (M := 10000) (K := 512) (N := 512) h (meanRecip h src dst)
    (extractStridedSlice S512x512 ![0, 0] W1 slices_S1024x512_S512x512_0_0)
    (extractStridedSlice S512x512 ![512, 0] W1 slices_S1024x512_S512x512_512_0)
    (shapeCast S1x512 b1 shapeCasts_S512_S1x512)

/-- The program's result. -/
def value (h : FVec Ideal S10000x512 .f32) (W1 : FVec Ideal S1024x512 .f32) (b1 : FVec Ideal S512 .f32)
    (W2 : FVec Ideal S1024x128 .f32) (b2 : FVec Ideal S128 .f32) (src dst : IVec S160000 32) : FVec Ideal S10000x128 .f32 :=
  pairProducts (M := 10000) (K := 512) (N := 128) (hidden h W1 b1 src dst) (meanRecip (hidden h W1 b1 src dst) src dst)
    (extractStridedSlice S512x128 ![0, 0] W2 slices_S1024x128_S512x128_0_0)
    (extractStridedSlice S512x128 ![512, 0] W2 slices_S1024x128_S512x128_512_0)
    (shapeCast S1x128 b2 shapeCasts_S128_S1x128)

variable (m : (ℓ : Loc nD τ sig) → Buf (Elt Ideal) ℓ) (ρ : Dev nD → PrngReg) (c : Dev nD)

/-! ## The first launch's operands, read back through the host operations before it -/

theorem V1_arg0 : V1 m ρ c main_arg0 = (m ((c : Thread nD τ).loc main_arg0)) := by
  show StableHlo.after hostOps0 (W0 m ρ c) (Proc.devRef .tc main_arg0) = _
  after_results_simp <;> rfl

theorem V1_v24 : V1 m ρ c main_v24 = meanRecip (m ((c : Thread nD τ).loc main_arg0)) (m ((c : Thread nD τ).loc main_arg5)) (m ((c : Thread nD τ).loc main_arg6)) := by
  show StableHlo.after hostOps0 (W0 m ρ c) (Proc.devRef .tc main_v24) = _
  after_results_simp <;> rfl

theorem V1_v8 : V1 m ρ c main_v8 = extractStridedSlice S512x512 ![0, 0] (m ((c : Thread nD τ).loc main_arg1)) slices_S1024x512_S512x512_0_0 := by
  show StableHlo.after hostOps0 (W0 m ρ c) (Proc.devRef .tc main_v8) = _
  after_results_simp <;> rfl

theorem V1_v9 : V1 m ρ c main_v9 = extractStridedSlice S512x512 ![512, 0] (m ((c : Thread nD τ).loc main_arg1)) slices_S1024x512_S512x512_512_0 := by
  show StableHlo.after hostOps0 (W0 m ρ c) (Proc.devRef .tc main_v9) = _
  after_results_simp <;> rfl

theorem V1_v25 : V1 m ρ c main_v25 = shapeCast S1x512 (m ((c : Thread nD τ).loc main_arg2)) shapeCasts_S512_S1x512 := by
  show StableHlo.after hostOps0 (W0 m ρ c) (Proc.devRef .tc main_v25) = _
  after_results_simp <;> rfl

/-- The first launch's output array is the first layer's output of the arguments. -/
theorem W2_v26 : W2 m ρ c (Proc.devRef .tc main_v26)
    = hidden (m ((c : Thread nD τ).loc main_arg0)) (m ((c : Thread nD τ).loc main_arg1)) (m ((c : Thread nD τ).loc main_arg2)) (m ((c : Thread nD τ).loc main_arg5)) (m ((c : Thread nD τ).loc main_arg6)) := by
  refine (W2_arr m ρ c 5).trans ((final0 (V1 m ρ) c).trans ?_)
  rw [V1_arg0, V1_v24, V1_v8, V1_v9, V1_v25]
  rfl

/-! ## Buffers the first launch does not touch, read back to the arguments -/

theorem W2_arg3 : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  after_results_simp <;> rfl

theorem W2_arg4 : W2 m ρ c (Proc.devRef .tc main_arg4) = (m ((c : Thread nD τ).loc main_arg4)) := by
  rw [W2_of_ne m ρ c main_arg4 (by decide)]
  show StableHlo.after hostOps0 (W0 m ρ c) (Proc.devRef .tc main_arg4) = _
  after_results_simp <;> rfl

theorem W2_arg5 : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl

theorem W2_arg6 : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

theorem W2_v7 : W2 m ρ c (Proc.devRef .tc main_v7) = degRecip (m ((c : Thread nD τ).loc main_arg6)) := by
  rw [W2_of_ne m ρ c main_v7 (by decide)]
  show StableHlo.after hostOps0 (W0 m ρ c) (Proc.devRef .tc main_v7) = _
  after_results_simp <;> rfl

theorem W2_v10 : W2 m ρ c (Proc.devRef .tc main_v10) = extractStridedSlice S512x128 ![0, 0] (m ((c : Thread nD τ).loc main_arg3)) slices_S1024x128_S512x128_0_0 := by
  rw [W2_of_ne m ρ c main_v10 (by decide)]
  show StableHlo.after hostOps0 (W0 m ρ c) (Proc.devRef .tc main_v10) = _
  after_results_simp <;> rfl

theorem W2_v11 : W2 m ρ c (Proc.devRef .tc main_v11) = extractStridedSlice S512x128 ![512, 0] (m ((c : Thread nD τ).loc main_arg3)) slices_S1024x128_S512x128_512_0 := by
  rw [W2_of_ne m ρ c main_v11 (by decide)]
  show StableHlo.after hostOps0 (W0 m ρ c) (Proc.devRef .tc main_v11) = _
  after_results_simp <;> rfl

/-! ## The second launch's operands, read back through the host operations between the launches -/

theorem V3_v26 : V3 m ρ c main_v26 = hidden (m ((c : Thread nD τ).loc main_arg0)) (m ((c : Thread nD τ).loc main_arg1)) (m ((c : Thread nD τ).loc main_arg2)) (m ((c : Thread nD τ).loc main_arg5)) (m ((c : Thread nD τ).loc main_arg6)) := by
  show StableHlo.after hostOps1 (W2 m ρ c) (Proc.devRef .tc main_v26) = _
  refine Eq.trans ?_ (W2_v26 m ρ c)
  after_results_simp <;> rfl

theorem V3_v39 : V3 m ρ c main_v39
    = meanRecip (hidden (m ((c : Thread nD τ).loc main_arg0)) (m ((c : Thread nD τ).loc main_arg1)) (m ((c : Thread nD τ).loc main_arg2)) (m ((c : Thread nD τ).loc main_arg5)) (m ((c : Thread nD τ).loc main_arg6))) (m ((c : Thread nD τ).loc main_arg5)) (m ((c : Thread nD τ).loc main_arg6)) := by
  unfold meanRecip
  rw [← W2_v7 m ρ c, ← W2_v26 m ρ c, ← W2_arg5 m ρ c, ← W2_arg6 m ρ c]
  show StableHlo.after hostOps1 (W2 m ρ c) (Proc.devRef .tc main_v39) = _
  after_results_simp <;> rfl

theorem V3_v10 : V3 m ρ c main_v10 = extractStridedSlice S512x128 ![0, 0] (m ((c : Thread nD τ).loc main_arg3)) slices_S1024x128_S512x128_0_0 := by
  show StableHlo.after hostOps1 (W2 m ρ c) (Proc.devRef .tc main_v10) = _
  refine Eq.trans ?_ (W2_v10 m ρ c)
  after_results_simp <;> rfl

theorem V3_v11 : V3 m ρ c main_v11 = extractStridedSlice S512x128 ![512, 0] (m ((c : Thread nD τ).loc main_arg3)) slices_S1024x128_S512x128_512_0 := by
  show StableHlo.after hostOps1 (W2 m ρ c) (Proc.devRef .tc main_v11) = _
  refine Eq.trans ?_ (W2_v11 m ρ c)
  after_results_simp <;> rfl

theorem V3_v40 : V3 m ρ c main_v40 = shapeCast S1x128 (m ((c : Thread nD τ).loc main_arg4)) shapeCasts_S128_S1x128 := by
  rw [← W2_arg4 m ρ c]
  show StableHlo.after hostOps1 (W2 m ρ c) (Proc.devRef .tc main_v40) = _
  after_results_simp <;> rfl

/-- THE RESULT ARRAY after the run is the program's value of the argument arrays. -/
theorem result_eq : W4 m ρ c (Proc.devRef .tc main_v41)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ((final1 (V3 m ρ) c).trans ?_)
  rw [V3_v26, V3_v39, V3_v10, V3_v11, V3_v40]
  rfl

end Cert.KernelIdeal.Host

end
-- ==== Proof.Bridge.lean ====
/-
  The reference's result is the kernel program's value.

  The reference computes each layer as: the neighbour sums DIVIDED by the in-degree floored at one; the node
  features and that mean joined side by side; one general dot product with the whole weight matrix; the bias
  repeated down the rows; for the first layer the larger of that and zero.  Entry by entry the dot product over the
  1024 joined columns is the product of the features with the upper 512 rows of the weights plus the product of the
  mean with the lower 512 rows (module SageLayer), and the quotient by the floored in-degree is the product with its
  reciprocal (module SageAlgebra).  The gathers and the scatters are the same operations of the same operands on
  both sides and are never opened.
-/
import proofs.«156740_j42185168781873_1_alg».proof.Proof.Gen.ReferenceIdeal.Run
import proofs.«156740_j42185168781873_1_alg».proof.Proof.KernelValue

set_option maxRecDepth 16384

noncomputable section

namespace Cert.ReferenceIdeal.RefValue

open Cert.ReferenceIdeal Cert.ReferenceIdeal.Gen Idealize.ShloMosaic Idealize.ShloMosaic.TcCoe Idealize.ShloMosaic.ValueIdx
open Idealize.SL.Sem Cert.Sage

/-! ## The two general dot products' dimension numbers: rows of the left against columns of the right -/

theorem r0_lhs0 (i : S10000x512.Idx) (q : dot_S10000x1024_S1024x512_S10000x512_1_0_0_1_n_n.contr.Idx) : (dot_S10000x1024_S1024x512_S10000x512_1_0_0_1_n_n.lhsIdx i q 0).val = (i 0).val := by
  unfold DotDims.lhsIdx
  rw [dif_neg (show ¬(0 : Fin S10000x1024.rank) ∈ dot_S10000x1024_S1024x512_S10000x512_1_0_0_1_n_n.lhsBatch by decide), dif_pos (show (0 : Fin S10000x1024.rank) ∈ dot_S10000x1024_S1024x512_S10000x512_1_0_0_1_n_n.lhsNonContracting by decide)]
  rfl
theorem r0_lhs1 (i : S10000x512.Idx) (q : dot_S10000x1024_S1024x512_S10000x512_1_0_0_1_n_n.contr.Idx) : (dot_S10000x1024_S1024x512_S10000x512_1_0_0_1_n_n.lhsIdx i q 1).val = (q ⟨0, by decide⟩).val :=
  dot_S10000x1024_S1024x512_S10000x512_1_0_0_1_n_n.lhsIdx_val_of_single rfl i q
theorem r0_rhs0 (i : S10000x512.Idx) (q : dot_S10000x1024_S1024x512_S10000x512_1_0_0_1_n_n.contr.Idx) : (dot_S10000x1024_S1024x512_S10000x512_1_0_0_1_n_n.rhsIdx i q 0).val = (q ⟨0, by decide⟩).val :=
  dot_S10000x1024_S1024x512_S10000x512_1_0_0_1_n_n.rhsIdx_val_of_single rfl i q
theorem r0_rhs1 (i : S10000x512.Idx) (q : dot_S10000x1024_S1024x512_S10000x512_1_0_0_1_n_n.contr.Idx) : (dot_S10000x1024_S1024x512_S10000x512_1_0_0_1_n_n.rhsIdx i q 1).val = (i 1).val := by
  unfold DotDims.rhsIdx
  rw [dif_neg (show ¬(1 : Fin S1024x512.rank) ∈ dot_S10000x1024_S1024x512_S10000x512_1_0_0_1_n_n.rhsBatch by decide), dif_pos (show (1 : Fin S1024x512.rank) ∈ dot_S10000x1024_S1024x512_S10000x512_1_0_0_1_n_n.rhsNonContracting by decide)]
  rfl

theorem r1_lhs0 (i : S10000x128.Idx) (q : dot_S10000x1024_S1024x128_S10000x128_1_0_0_1_n_n.contr.Idx) : (dot_S10000x1024_S1024x128_S10000x128_1_0_0_1_n_n.lhsIdx i q 0).val = (i 0).val := by
  unfold DotDims.lhsIdx
  rw [dif_neg (show ¬(0 : Fin S10000x1024.rank) ∈ dot_S10000x1024_S1024x128_S10000x128_1_0_0_1_n_n.lhsBatch by decide), dif_pos (show (0 : Fin S10000x1024.rank) ∈ dot_S10000x1024_S1024x128_S10000x128_1_0_0_1_n_n.lhsNonContracting by decide)]
  rfl
theorem r1_lhs1 (i : S10000x128.Idx) (q : dot_S10000x1024_S1024x128_S10000x128_1_0_0_1_n_n.contr.Idx) : (dot_S10000x1024_S1024x128_S10000x128_1_0_0_1_n_n.lhsIdx i q 1).val = (q ⟨0, by decide⟩).val :=
  dot_S10000x1024_S1024x128_S10000x128_1_0_0_1_n_n.lhsIdx_val_of_single rfl i q
theorem r1_rhs0 (i : S10000x128.Idx) (q : dot_S10000x1024_S1024x128_S10000x128_1_0_0_1_n_n.contr.Idx) : (dot_S10000x1024_S1024x128_S10000x128_1_0_0_1_n_n.rhsIdx i q 0).val = (q ⟨0, by decide⟩).val :=
  dot_S10000x1024_S1024x128_S10000x128_1_0_0_1_n_n.rhsIdx_val_of_single rfl i q
theorem r1_rhs1 (i : S10000x128.Idx) (q : dot_S10000x1024_S1024x128_S10000x128_1_0_0_1_n_n.contr.Idx) : (dot_S10000x1024_S1024x128_S10000x128_1_0_0_1_n_n.rhsIdx i q 1).val = (i 1).val := by
  unfold DotDims.rhsIdx
  rw [dif_neg (show ¬(1 : Fin S1024x128.rank) ∈ dot_S10000x1024_S1024x128_S10000x128_1_0_0_1_n_n.rhsBatch by decide), dif_pos (show (1 : Fin S1024x128.rank) ∈ dot_S10000x1024_S1024x128_S10000x128_1_0_0_1_n_n.rhsNonContracting by decide)]
  rfl

/-- The reference's composed term, over its seven operands. -/
def term (h : FVec Ideal S10000x512 .f32) (W1 : FVec Ideal S1024x512 .f32) (b1 : FVec Ideal S512 .f32)
    (W2 : FVec Ideal S1024x128 .f32) (b2 : FVec Ideal S128 .f32) (src dst : IVec S160000 32) : FVec Ideal S10000x128 .f32 :=
  addf (Host.dotGeneral dot_S10000x1024_S1024x128_S10000x128_1_0_0_1_n_n none (concatenate S10000x1024 1 [⟨S10000x512, (maximumf (addf (Host.dotGeneral dot_S10000x1024_S1024x512_S10000x512_1_0_0_1_n_n none (concatenate S10000x1024 1 [⟨S10000x512, h⟩, ⟨S10000x512, (Host.divf (Host.scatterAdd scatter_S10000x512_S160000x1_S160000x512_1_0_0_1 (broadcastInDim S10000x512 ![] bcast_S_S10000x512 (constant S_ .f32 0x00000000#32)) (broadcastInDim S160000x1 ![0] bcast_S160000_S160000x1_0 dst) (Host.gather gather_S10000x512_S160000x1_S160000x512_1_0_n_n_0_1_1512 h (broadcastInDim S160000x1 ![0] bcast_S160000_S160000x1_0 (select (cmpi .slt src (broadcastInDim S160000 ![] bcast_S_S160000 (constantI S_ 32 0#32))) (addi src (broadcastInDim S160000 ![] bcast_S_S160000 (constantI S_ 32 10000#32))) src)))) (broadcastInDim S10000x512 ![0, 1] bcast_S10000x1_S10000x512_0_1 (broadcastInDim S10000x1 ![0] bcast_S10000_S10000x1_0 (maximumf (Host.scatterAdd scatter_S10000_S160000x1_S160000_n_0_0_1 (broadcastInDim S10000 ![] bcast_S_S10000 (constant S_ .f32 0x00000000#32)) (broadcastInDim S160000x1 ![0] bcast_S160000_S160000x1_0 dst) (broadcastInDim S160000 ![] bcast_S_S160000 (constant S_ .f32 0x3F800000#32))) (broadcastInDim S10000 ![] bcast_S_S10000 (constant S_ .f32 0x3F800000#32))))))⟩] concatenates_S10000x512_S10000x512_S10000x1024_d1) W1) (broadcastInDim S10000x512 ![0, 1] bcast_S1x512_S10000x512_0_1 (broadcastInDim S1x512 ![1] bcast_S512_S1x512_1 b1))) (broadcastInDim S10000x512 ![] bcast_S_S10000x512 (constant S_ .f32 0x00000000#32)))⟩, ⟨S10000x512, (Host.divf (Host.scatterAdd scatter_S10000x512_S160000x1_S160000x512_1_0_0_1 (broadcastInDim S10000x512 ![] bcast_S_S10000x512 (constant S_ .f32 0x00000000#32)) (broadcastInDim S160000x1 ![0] bcast_S160000_S160000x1_0 dst) (Host.gather gather_S10000x512_S160000x1_S160000x512_1_0_n_n_0_1_1512 (maximumf (addf (Host.dotGeneral dot_S10000x1024_S1024x512_S10000x512_1_0_0_1_n_n none (concatenate S10000x1024 1 [⟨S10000x512, h⟩, ⟨S10000x512, (Host.divf (Host.scatterAdd scatter_S10000x512_S160000x1_S160000x512_1_0_0_1 (broadcastInDim S10000x512 ![] bcast_S_S10000x512 (constant S_ .f32 0x00000000#32)) (broadcastInDim S160000x1 ![0] bcast_S160000_S160000x1_0 dst) (Host.gather gather_S10000x512_S160000x1_S160000x512_1_0_n_n_0_1_1512 h (broadcastInDim S160000x1 ![0] bcast_S160000_S160000x1_0 (select (cmpi .slt src (broadcastInDim S160000 ![] bcast_S_S160000 (constantI S_ 32 0#32))) (addi src (broadcastInDim S160000 ![] bcast_S_S160000 (constantI S_ 32 10000#32))) src)))) (broadcastInDim S10000x512 ![0, 1] bcast_S10000x1_S10000x512_0_1 (broadcastInDim S10000x1 ![0] bcast_S10000_S10000x1_0 (maximumf (Host.scatterAdd scatter_S10000_S160000x1_S160000_n_0_0_1 (broadcastInDim S10000 ![] bcast_S_S10000 (constant S_ .f32 0x00000000#32)) (broadcastInDim S160000x1 ![0] bcast_S160000_S160000x1_0 dst) (broadcastInDim S160000 ![] bcast_S_S160000 (constant S_ .f32 0x3F800000#32))) (broadcastInDim S10000 ![] bcast_S_S10000 (constant S_ .f32 0x3F800000#32))))))⟩] concatenates_S10000x512_S10000x512_S10000x1024_d1) W1) (broadcastInDim S10000x512 ![0, 1] bcast_S1x512_S10000x512_0_1 (broadcastInDim S1x512 ![1] bcast_S512_S1x512_1 b1))) (broadcastInDim S10000x512 ![] bcast_S_S10000x512 (constant S_ .f32 0x00000000#32))) (broadcastInDim S160000x1 ![0] bcast_S160000_S160000x1_0 (select (cmpi .slt src (broadcastInDim S160000 ![] bcast_S_S160000 (constantI S_ 32 0#32))) (addi src (broadcastInDim S160000 ![] bcast_S_S160000 (constantI S_ 32 10000#32))) src)))) (broadcastInDim S10000x512 ![0, 1] bcast_S10000x1_S10000x512_0_1 (broadcastInDim S10000x1 ![0] bcast_S10000_S10000x1_0 (maximumf (Host.scatterAdd scatter_S10000_S160000x1_S160000_n_0_0_1 (broadcastInDim S10000 ![] bcast_S_S10000 (constant S_ .f32 0x00000000#32)) (broadcastInDim S160000x1 ![0] bcast_S160000_S160000x1_0 dst) (broadcastInDim S160000 ![] bcast_S_S160000 (constant S_ .f32 0x3F800000#32))) (broadcastInDim S10000 ![] bcast_S_S10000 (constant S_ .f32 0x3F800000#32))))))⟩] concatenates_S10000x512_S10000x512_S10000x1024_d1) W2) (broadcastInDim S10000x128 ![0, 1] bcast_S1x128_S10000x128_0_1 (broadcastInDim S1x128 ![1] bcast_S128_S1x128_1 b2))

/-- The run's result term is that term of the argument arrays. -/
theorem res_eq_term (m : (ℓ : Loc nD τ sig) → Buf (Elt Ideal) ℓ) (c : Dev nD) :
    Cert.ReferenceIdeal.Value.res_main_v48 (F := Ideal) m c
      = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v48 term
  rfl

/-- The kernel program's neighbour mean is the quotient form the reference spells. -/
theorem kernel_mean_quot (x : FVec Ideal S10000x512 .f32) (src dst : IVec S160000 32) :
    Cert.KernelIdeal.Host.meanRecip x src dst
      = Host.divf (Cert.KernelIdeal.Host.nbrSum x src dst)
          (broadcastInDim S10000x512 ![0, 1] Cert.KernelIdeal.Facts₀.bcast_S10000x1_S10000x512_0_1
            (broadcastInDim S10000x1 ![0] Cert.KernelIdeal.Facts₀.bcast_S10000_S10000x1_0 (Cert.KernelIdeal.Host.degFloor dst))) := by
  unfold Cert.KernelIdeal.Host.meanRecip Cert.KernelIdeal.Host.degRecip Cert.KernelIdeal.Host.degFloor
  exact mean_forms (R := 10000) (C := 512) Cert.KernelIdeal.Facts₀.bcast_S_S10000 Cert.KernelIdeal.Facts₀.bcast_S10000_S10000x1_0
    Cert.KernelIdeal.Facts₀.bcast_S10000x1_S10000x512_0_1 _ _

/-- THE BRIDGE: the reference's term is the kernel program's value, for all operands. -/
theorem term_eq_value (h : FVec Ideal S10000x512 .f32) (W1 : FVec Ideal S1024x512 .f32) (b1 : FVec Ideal S512 .f32)
    (W2 : FVec Ideal S1024x128 .f32) (b2 : FVec Ideal S128 .f32) (src dst : IVec S160000 32) :
    term h W1 b1 W2 b2 src dst = Cert.KernelIdeal.Host.value h W1 b1 W2 b2 src dst := by
  unfold term
  rw [host_layer (M := 10000) (K := 512) (K2 := 1024) (N := 512) rfl dot_S10000x1024_S1024x512_S10000x512_1_0_0_1_n_n rfl rfl r0_lhs0 r0_lhs1 r0_rhs0 r0_rhs1
      concatenates_S10000x512_S10000x512_S10000x1024_d1 bcast_S512_S1x512_1 bcast_S1x512_S10000x512_0_1
      Cert.KernelIdeal.Facts₀.slices_S1024x512_S512x512_0_0 Cert.KernelIdeal.Facts₀.slices_S1024x512_S512x512_512_0
      Cert.KernelIdeal.Facts₀.shapeCasts_S512_S1x512,
    host_layer (M := 10000) (K := 512) (K2 := 1024) (N := 128) rfl dot_S10000x1024_S1024x128_S10000x128_1_0_0_1_n_n rfl rfl r1_lhs0 r1_lhs1 r1_rhs0 r1_rhs1
      concatenates_S10000x512_S10000x512_S10000x1024_d1 bcast_S128_S1x128_1 bcast_S1x128_S10000x128_0_1
      Cert.KernelIdeal.Facts₀.slices_S1024x128_S512x128_0_0 Cert.KernelIdeal.Facts₀.slices_S1024x128_S512x128_512_0
      Cert.KernelIdeal.Facts₀.shapeCasts_S128_S1x128]
  unfold Cert.KernelIdeal.Host.value Cert.KernelIdeal.Host.hidden
  rw [kernel_mean_quot, kernel_mean_quot]
  rfl

end Cert.ReferenceIdeal.RefValue

end
-- ==== Proof.lean ====
/-
  Two graph layers with mean aggregation over in-neighbours: the kernel program against its reference, on the extended reals.

  Both programs compute, for node features h, weights W1, W2, biases b1, b2 and an edge list (src, dst),
      h1  = max([h | mean(h)] · W1 + b1, 0),      out = [h1 | mean(h1)] · W2 + b2,
  where mean(x) is, per node, the sum of the rows x[src[e]] over the edges e with dst[e] that node, over the number of
  such edges floored at one.  They differ in two places.  The kernel program multiplies the sums by 1 / max(count, 1)
  where the reference divides by max(count, 1): equal for every extended real, since the divisor is at least one and
  off zero the ideal quotient is the product with the inverse.  The kernel program contracts h with the upper half of
  the weights and the mean with the lower half and adds, block of 1000 rows by block, where the reference joins the
  two feature arrays and contracts once: equal because a sum of 1024 products is the sum of its first 512 plus the sum
  of its last 512.  Neither step uses finiteness of the inputs, so the precondition is never opened; the gathers and
  scatter-adds are the same operations of the same operands on both sides and are never opened either.

  The frames of the two kernel programs are the generated ones; the reference's frame is its generated run with the
  result dropped; the idealization rewrote no operation, so there is nothing to preserve.
-/
import proofs.«156740_j42185168781873_1_alg».proof.Defs
import proofs.«156740_j42185168781873_1_alg».proof.Proof.Gen.Kernel
import proofs.«156740_j42185168781873_1_alg».proof.Proof.Gen.Kernel.Frame
import proofs.«156740_j42185168781873_1_alg».proof.Proof.Gen.KernelIdeal
import proofs.«156740_j42185168781873_1_alg».proof.Proof.Gen.KernelIdeal.Frame
import proofs.«156740_j42185168781873_1_alg».proof.Proof.Gen.ReferenceIdeal
import proofs.«156740_j42185168781873_1_alg».proof.Proof.Gen.Pre_finite_inputs
import proofs.«156740_j42185168781873_1_alg».proof.Proof.Gen.ReferenceIdeal.Run
import proofs.«156740_j42185168781873_1_alg».proof.Proof.KernelRun
import proofs.«156740_j42185168781873_1_alg».proof.Proof.KernelValue
import proofs.«156740_j42185168781873_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the kernel program's value of the arguments in
    their result arrays. -/
theorem algebraic : Cert.algebraic_KernelIdeal_ReferenceIdeal := by
  intro m ρ m' ρ' _ hagree
  refine ⟨fun c => Cert.KernelIdeal.Host.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Host.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq_term, (hagree c).1, (hagree c).2.1, (hagree c).2.2.1, (hagree c).2.2.2.1,
      (hagree c).2.2.2.2.1, (hagree c).2.2.2.2.2.1, (hagree c).2.2.2.2.2.2]
    exact Cert.ReferenceIdeal.RefValue.term_eq_value _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
